-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S16x4096 .f32) (main_arg3 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S256x4096 : Shape := ⟨2, ![256, 4096]⟩
abbrev S256x16 : Shape := ⟨2, ![256, 16]⟩
abbrev S8192x4096 : Shape := ⟨2, ![8192, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .bf16⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x4096, .bf16⟩
  | .local _ .vmem, ⟨6, _⟩ => ⟨S256x4096, .bf16⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | .local _ .vmem, ⟨10, _⟩ => ⟨S1024x4096, .bf16⟩
  | .local _ .vmem, ⟨11, _⟩ => ⟨S512x1024, .f32⟩
  | .local _ .vmem, ⟨12, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x2048x4096, .f32⟩
  | .hbm, ⟨5, _⟩ => ⟨S4x2048x16, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KernelRun.lean ====
/-
  The idealized kernel's run with its RESULT named.  The program is: the weight-folding region, two host operations
  (flatten x to [8192, 4096], change of float format), the matmul region, one host operation (unflatten the result).
  Every weakly fair execution terminates without fault, the four argument arrays end as launched, and the result
  buffer ends at the contents the last boundary of the run assigns it (the fold of the four segments over the launch
  memory, at the result's reference).  The later modules read that fold back to a function of the arguments.
-/
import proofs.«171757_j38500086841722_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read against the last boundary's contents. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KernelRun

end
-- ==== Proof.Spec.lean ====
/-
  The mathematics of the low-rank-adapter linear layer, stated once over literal shapes and the extended reals.

  Inputs: `x` of shape [4, 2048, 4096], a base weight `W` of shape [4096, 4096] (row `o`, column `d`), and the two
  adapter factors `A` of shape [16, 4096] and `B` of shape [4096, 16].  With the scale `two` (the value of the f32 word
  0x40000000):

  * the folded weight is  wc[o, d] = W[o, d] + two * Σ_r B[o, r] * A[r, d];
  * a [8192, 4096] array `X` times the transpose of a [4096, 4096] array `C` is  mm X C [p, o] = Σ_d X[p, d] * C[o, d];
  * the fused form (what one matmul against the folded weight computes) is
        Gk[b, s, o] = Σ_d x[b, s, d] * wc[o, d];
  * the two-path form (base product plus the scaled low-rank correction) is
        Gr[b, s, o] = Σ_d x[b, s, d] * W[o, d] + two * Σ_r (Σ_d x[b, s, d] * A[r, d]) * B[o, r].

  The two forms agree when every entry is a real number: distribute the product over the sum inside `wc`, pull the
  scale out of the sum over `d`, and exchange the sums over `d` and `r`.  (On the extended reals distributivity fails
  at infinities, so finiteness of the inputs is used.)
-/
import Idealize.ShloMosaic.PureOps.Ideal
import Idealize.ShloMosaic.Lib.ValueIdx

noncomputable section

namespace Cert.Lora

open Idealize.ShloMosaic Idealize.ShloMosaic.ValueIdx

abbrev SX : Shape := ⟨3, ![4, 2048, 4096]⟩
abbrev SW : Shape := ⟨2, ![4096, 4096]⟩
abbrev SA : Shape := ⟨2, ![16, 4096]⟩
abbrev SB : Shape := ⟨2, ![4096, 16]⟩
abbrev SM : Shape := ⟨2, ![8192, 4096]⟩

/-- The scale: the extended real the f32 word of 2.0 denotes. -/
def two : EReal := Ideal.ofBits .f32 0x40000000#32

/-- The folded weight at row `o`, column `d`. -/
def wcAt (W : SW.Idx → EReal) (A : SA.Idx → EReal) (B : SB.Idx → EReal) (o d : Fin 4096) : EReal :=
  W (ix2 o d) + two * ∑ r : Fin 16, B (ix2 o r) * A (ix2 r d)

/-- The folded weight as an array. -/
def wc (W : SW.Idx → EReal) (A : SA.Idx → EReal) (B : SB.Idx → EReal) : SW.Idx → EReal :=
  fun j => wcAt W A B ⟨(j 0).val, (j 0).isLt⟩ ⟨(j 1).val, (j 1).isLt⟩

/-- Row `p` of `X` against row `o` of `C`. -/
def mmAt (X : SM.Idx → EReal) (C : SW.Idx → EReal) (p : Fin 8192) (o : Fin 4096) : EReal :=
  ∑ d : Fin 4096, X (ix2 p d) * C (ix2 o d)

/-- `X` times the transpose of `C`, as an array of shape [8192, 4096]. -/
def mm (X : SM.Idx → EReal) (C : SW.Idx → EReal) : SM.Idx → EReal :=
  fun j => mmAt X C ⟨(j 0).val, (j 0).isLt⟩ ⟨(j 1).val, (j 1).isLt⟩

/-- The fused form at batch `b`, position `s`, output feature `o`. -/
def GkAt (x : SX.Idx → EReal) (W : SW.Idx → EReal) (A : SA.Idx → EReal) (B : SB.Idx → EReal)
    (b : Fin 4) (s : Fin 2048) (o : Fin 4096) : EReal :=
  ∑ d : Fin 4096, x (ix3 b s d) * wcAt W A B o d

/-- The fused form as an array. -/
def Gk (x : SX.Idx → EReal) (W : SW.Idx → EReal) (A : SA.Idx → EReal) (B : SB.Idx → EReal) : SX.Idx → EReal :=
  fun i => GkAt x W A B ⟨(i 0).val, (i 0).isLt⟩ ⟨(i 1).val, (i 1).isLt⟩ ⟨(i 2).val, (i 2).isLt⟩

/-- The two-path form at batch `b`, position `s`, output feature `o`. -/
def GrAt (x : SX.Idx → EReal) (W : SW.Idx → EReal) (A : SA.Idx → EReal) (B : SB.Idx → EReal)
    (b : Fin 4) (s : Fin 2048) (o : Fin 4096) : EReal :=
  (∑ d : Fin 4096, x (ix3 b s d) * W (ix2 o d))
    + two * ∑ r : Fin 16, (∑ d : Fin 4096, x (ix3 b s d) * A (ix2 r d)) * B (ix2 o r)

/-- The two-path form as an array. -/
def Gr (x : SX.Idx → EReal) (W : SW.Idx → EReal) (A : SA.Idx → EReal) (B : SB.Idx → EReal) : SX.Idx → EReal :=
  fun i => GrAt x W A B ⟨(i 0).val, (i 0).isLt⟩ ⟨(i 1).val, (i 1).isLt⟩ ⟨(i 2).val, (i 2).isLt⟩

end Cert.Lora

end
-- ==== Proof.Flatten.lean ====
/-
  Flattening and unflattening around the matmul.  Entry (b, s, d) of a [4, 2048, 4096] array sits at row-major
  position (b·2048 + s)·4096 + d, which is entry (b·2048 + s, d) of its [8192, 4096] reshape; so the reshape back of
  (flattened x) times the transpose of C, at (b, s, o), is Σ_d x[b, s, d] · C[o, d].  A change of float format is the
  identity on the extended reals.
-/
import proofs.«171757_j38500086841722_2_alg».proof.Proof.Spec
import Idealize.ShloMosaic.Lib.Pipeline.Value
import Idealize.ShloMosaic.Lib.ValueIdx

noncomputable section

namespace Cert.Lora

open Idealize.ShloMosaic Idealize.ShloMosaic.ValueIdx

/-- Row b·2048 + s of the flattened array. -/
def flatRow (b : Fin 4) (s : Fin 2048) : Fin 8192 := ⟨b.val * 2048 + s.val, by omega⟩

/-- The flattened x at (b·2048 + s, d) is x at (b, s, d). -/
theorem flatten_apply (x : SX.Idx → EReal) (h : SX.ShapeCasts SM) (b : Fin 4) (s : Fin 2048) (d : Fin 4096) :
    shapeCast SM x h (ix2 (flatRow b s) d) = x (ix3 b s d) := by
  refine shapeCast_apply x h _ _ ?_
  rw [Shape.rowMajor_val_three, Shape.rowMajor_val_two]
  rfl

/-- The unflattened product at (b, s, o). -/
theorem unflatten_mm_apply (X : SM.Idx → EReal) (C : SW.Idx → EReal) (h : SM.ShapeCasts SX)
    (b : Fin 4) (s : Fin 2048) (o : Fin 4096) :
    shapeCast SX (mm X C) h (ix3 b s o) = ∑ d : Fin 4096, X (ix2 (flatRow b s) d) * C (ix2 o d) := by
  rw [shapeCast_apply (mm X C) h (ix3 b s o) (ix2 (flatRow b s) o) (by
    rw [Shape.rowMajor_val_three, Shape.rowMajor_val_two]; rfl)]
  rfl

/-- The whole kernel-side composition is the fused form: flatten x, fold the weight, multiply, unflatten. -/
theorem unflatten_mm_flatten (x : SX.Idx → EReal) (W : SW.Idx → EReal) (A : SA.Idx → EReal) (B : SB.Idx → EReal)
    (h1 : SX.ShapeCasts SM) (h2 : SM.ShapeCasts SX) :
    shapeCast SX (mm (shapeCast SM x h1) (wc W A B)) h2 = Gk x W A B := by
  funext i
  obtain ⟨b, s, o, rfl⟩ : ∃ (b : Fin 4) (s : Fin 2048) (o : Fin 4096), i = ix3 b s o := ⟨i 0, i 1, i 2, eq_ix3 i⟩
  rw [unflatten_mm_apply]
  show _ = GkAt x W A B b s o
  unfold GkAt
  refine Finset.sum_congr rfl fun d _ => ?_
  rw [flatten_apply]
  rfl

end Cert.Lora

end
-- ==== Proof.Combine.lean ====
/-
  What the first region leaves in its output array.

  The region runs over 16 grid points. At point `t` its body reads rows `256·t … 256·t + 255` of the base weight
  `W` ([4096,4096]) and of the adapter factor `B` ([4096,16]), and the whole adapter factor `A` ([16,4096]), and
  writes rows `256·t … 256·t + 255` of the output with
      W[o, d] + two * Σ_r B[o, r] * A[r, d].
  Read index by index this is the folded weight `Cert.Lora.wc W A B` restricted to the block; the 16 blocks of 256
  rows tile the 4096 rows, so after the region the output array is the folded weight everywhere (`arr_eq`). The
  statement holds for ARBITRARY contents `V` of the buffers when the region is entered.

  Steps: the body's payload at an index of a block (`pay_apply`: the block product's sum over its contraction index
  re-indexed by the one contracted coordinate); the payload of blocks that are restrictions of `W`, `B`, `A` is the
  folded weight's entry (`pay_eq_wc`); what a symbolic point writes back is its block of the folded weight
  (`flushed_eq`: each window's block coordinate is block index × block size + the coordinate inside the block, the
  block indices decided once over the grid); row `r` lies in the block of point `r / 256` (`cover`).
-/
import proofs.«171757_j38500086841722_2_alg».proof.Proof.Gen.KernelIdeal.Frame
import proofs.«171757_j38500086841722_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Combine

open Cert.KernelIdeal Cert.KernelIdeal.Gen Idealize.ShloMosaic Idealize.ShloMosaic.TcCoe Idealize.ShloMosaic.ValueIdx Idealize.SL.Sem
open Idealize.ShloMosaic.Pipeline (Dat)

/-- The scale constant the kernel multiplies by is the specification's scale. -/
theorem two_eq : (Scalar.ofBits (F := Ideal) .f32 0x40000000#32 : Ideal .f32) = Cert.Lora.two := rfl

/-! ## The block product's operand indices

At output index `j` and contraction position `k` the [256,16] operand is read at (j 0, k) and the [16,4096]
operand at (k, j 1). -/

/-- The left operand's row is the output's row … -/
theorem lhs_row (j : S256x4096.Idx) (k : dot_S256x16_S16x4096_S256x4096_1_0_0_1_n_n.contr.Idx) :
    (dot_S256x16_S16x4096_S256x4096_1_0_0_1_n_n.lhsIdx j k 0).val = (j 0).val := by
  unfold DotDims.lhsIdx
  rw [dif_neg (show ¬(0 : Fin S256x16.rank) ∈ dot_S256x16_S16x4096_S256x4096_1_0_0_1_n_n.lhsBatch by decide),
    dif_pos (show (0 : Fin S256x16.rank) ∈ dot_S256x16_S16x4096_S256x4096_1_0_0_1_n_n.lhsNonContracting by decide)]
  rfl

/-- … its column the contraction position; -/
theorem lhs_col (j : S256x4096.Idx) (k : dot_S256x16_S16x4096_S256x4096_1_0_0_1_n_n.contr.Idx) :
    (dot_S256x16_S16x4096_S256x4096_1_0_0_1_n_n.lhsIdx j k 1).val = (k ⟨0, by decide⟩).val :=
  dot_S256x16_S16x4096_S256x4096_1_0_0_1_n_n.lhsIdx_val_of_single rfl j k

/-- the right operand's row is the contraction position … -/
theorem rhs_row (j : S256x4096.Idx) (k : dot_S256x16_S16x4096_S256x4096_1_0_0_1_n_n.contr.Idx) :
    (dot_S256x16_S16x4096_S256x4096_1_0_0_1_n_n.rhsIdx j k 0).val = (k ⟨0, by decide⟩).val :=
  dot_S256x16_S16x4096_S256x4096_1_0_0_1_n_n.rhsIdx_val_of_single rfl j k

/-- … and its column the output's column. -/
theorem rhs_col (j : S256x4096.Idx) (k : dot_S256x16_S16x4096_S256x4096_1_0_0_1_n_n.contr.Idx) :
    (dot_S256x16_S16x4096_S256x4096_1_0_0_1_n_n.rhsIdx j k 1).val = (j 1).val := by
  unfold DotDims.rhsIdx
  rw [dif_neg (show ¬(1 : Fin S16x4096.rank) ∈ dot_S256x16_S16x4096_S256x4096_1_0_0_1_n_n.rhsBatch by decide),
    dif_pos (show (1 : Fin S16x4096.rank) ∈ dot_S256x16_S16x4096_S256x4096_1_0_0_1_n_n.rhsNonContracting by decide)]
  rfl

/-- The body's payload at row p, column q of a block: the base block's entry plus the scale times the
    rank-16 product of row p of the [256,16] block with column q of the [16,4096] block. -/
theorem pay_apply (x0 : Vec Ideal S256x4096 .f32) (x1 : Vec Ideal S256x16 .f32) (x2 : Vec Ideal S16x4096 .f32)
    (p : Fin 256) (q : Fin 4096) :
    k0_pay1 (F := Ideal) x1 x2 x0 (ix2 p q)
      = x0 (ix2 p q) + Cert.Lora.two * ∑ r : Fin 16, x1 (ix2 p r) * x2 (ix2 r q) := by
  unfold k0_pay1
  rw [truncf_apply, addf_apply, mulf_apply, broadcast_apply, two_eq]
  show x0 (ix2 p q) + Cert.Lora.two * FloatOps.matmul dot_S256x16_S16x4096_S256x4096_1_0_0_1_n_n none x1 x2 (constant (F := Ideal) S256x4096 .f32 0x00000000#32) (ix2 p q) = _
  rw [Ideal.matmul_constant_zero_apply, ← Equiv.sum_comp (contrEquiv1 dot_S256x16_S16x4096_S256x4096_1_0_0_1_n_n 16 rfl rfl).symm]
  congr 2
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 p q)
      ((contrEquiv1 dot_S256x16_S16x4096_S256x4096_1_0_0_1_n_n 16 rfl rfl).symm k) = ix2 p k := funext fun a => Fin.ext (by
    match a with
    | ⟨0, _⟩ => exact lhs_row _ _
    | ⟨1, _⟩ => exact (lhs_col _ _).trans hk)
  have er : dot_S256x16_S16x4096_S256x4096_1_0_0_1_n_n.rhsIdx (ix2 p q)
      ((contrEquiv1 dot_S256x16_S16x4096_S256x4096_1_0_0_1_n_n 16 rfl rfl).symm k) = ix2 k q := funext fun a => Fin.ext (by
    match a with
    | ⟨0, _⟩ => exact (rhs_row _ _).trans hk
    | ⟨1, _⟩ => exact rhs_col _ _)
  rw [el, er]

/-- The folded weight's entry depends on its row and column only through their values. -/
theorem wcAt_congr (W : Cert.Lora.SW.Idx → EReal) (A : Cert.Lora.SA.Idx → EReal) (B : Cert.Lora.SB.Idx → EReal)
    {o o' d d' : Fin 4096} (ho : o.val = o'.val) (hd : d.val = d'.val) :
    Cert.Lora.wcAt W A B o d = Cert.Lora.wcAt W A B o' d' := by
  obtain rfl := Fin.ext ho
  obtain rfl := Fin.ext hd
  rfl

/-- When the [256,4096] block holds row `o` of `W` at its row `p`, the [256,16] block holds row `o` of `B` at its
    row `p`, and the [16,4096] block holds `A`, the payload at (p, q) is the folded weight's entry at (o, q). -/
theorem pay_eq_wc (W : Cert.Lora.SW.Idx → EReal) (A : Cert.Lora.SA.Idx → EReal) (B : Cert.Lora.SB.Idx → EReal)
    (x0 : Vec Ideal S256x4096 .f32) (x1 : Vec Ideal S256x16 .f32) (x2 : Vec Ideal S16x4096 .f32)
    (o : Fin 4096) (p : Fin 256) (q : Fin 4096)
    (h0 : x0 (ix2 p q) = W (ix2 o q))
    (h1 : ∀ r : Fin 16, x1 (ix2 p r) = B (ix2 o r))
    (h2 : ∀ r : Fin 16, x2 (ix2 r q) = A (ix2 r q)) :
    k0_pay1 (F := Ideal) x1 x2 x0 (ix2 p q) = Cert.Lora.wcAt W A B o q := by
  rw [pay_apply, h0]
  unfold Cert.Lora.wcAt
  congr 2
  exact Finset.sum_congr rfl fun r _ => by rw [h1, h2]

/-- The zero offsets of the body's whole-buffer loads and store, as a constant function. -/
theorem hz : (![0, 0] : Fin 2 → Nat) = fun _ => 0 := funext fun a => by fin_cases a <;> rfl

/-- The printed index maps, decided over the 16 grid points: the base weight's, the factor `B`'s and the output's block
    row is the point itself and their block column is 0; the factor `A`'s block is always the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- the buffer contents when the region is entered: arbitrary
variable (V : (c : Dev nD) → (b : Ref sig .tc) → Buf (Elt Ideal) ((c : Thread nD τ).loc b))

/-- WHAT POINT `t` WRITES BACK is block `t` of the folded weight of the argument arrays as the region finds them. -/
theorem flushed_eq (c : Dev nD) (t : Fin cfg0.N) :
    (dat0 (F := Ideal) V c).flushed 3 t
      = ((cfg0.win 3).blk t).view.read (Elt Ideal) (Cert.Lora.wc (V c main_arg1) (V c main_arg2) (V c main_arg3)) := by
  show (cfg0.win 3).cut (grid0.coords t) ((dat0 V c).after 3 t) = _
  rw [after0_3]
  unfold out0_3
  rw [View.canon_unit_zero hz]
  simp only [View.ld_unit_zero (S := S256x4096) hz, View.ld_unit_zero (S := S256x16) hz, View.ld_unit_zero (S := S16x4096) hz]
  funext j
  obtain ⟨p, q, rfl⟩ : ∃ (p : Fin 256) (q : Fin 4096), j = ix2 p q := ⟨j 0, j 1, eq_ix2 j⟩
  obtain ⟨e00, e01, e10, e11, e20, e21, e30, e31⟩ := idx_facts t
  have ht : t.val < 16 := t.isLt
  have hp : p.val < 256 := p.isLt
  have ho : t.val * 256 + p.val < 4096 := by omega
  show k0_pay1 (F := Ideal) (iblk0 V c 1 t) (iblk0 V c 2 t) (iblk0 V c 0 t) (ix2 p q)
    = Cert.Lora.wc (V c main_arg1) (V c main_arg2) (V c main_arg3) (((cfg0.win 3).blk t).view.emb (ix2 p q))
  refine (pay_eq_wc (V c main_arg1) (V c main_arg2) (V c main_arg3) (iblk0 V c 0 t) (iblk0 V c 1 t) (iblk0 V c 2 t)
    ⟨t.val * 256 + p.val, ho⟩ p q ?_ ?_ ?_).trans ?_
  · show V c main_arg1 (((cfg0.win 0).blk t).view.emb (ix2 p q)) = V c main_arg1 (ix2 ⟨t.val * 256 + p.val, ho⟩ q)
    refine congrArg (V c main_arg1) (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * q.val = q.val; omega
  · intro r
    show V c main_arg3 (((cfg0.win 1).blk t).view.emb (ix2 p r)) = V c main_arg3 (ix2 ⟨t.val * 256 + p.val, ho⟩ r)
    refine congrArg (V c main_arg3) (funext fun a => Fin.ext ?_)
    match a with
    | ⟨0, _⟩ => show win0_1.index t (0 : Fin 2) * 256 + 1 * p.val = t.val * 256 + p.val; omega
    | ⟨1, _⟩ => show win0_1.index t (1 : Fin 2) * 16 + 1 * r.val = r.val; omega
  · intro r
    show V c main_arg2 (((cfg0.win 2).blk t).view.emb (ix2 r q)) = V c main_arg2 (ix2 r q)
    refine congrArg (V c main_arg2) (funext fun a => Fin.ext ?_)
    match a with
    | ⟨0, _⟩ => show win0_2.index t (0 : Fin 2) * 16 + 1 * r.val = r.val; omega
    | ⟨1, _⟩ => show win0_2.index t (1 : Fin 2) * 4096 + 1 * q.val = q.val; omega
  · unfold Cert.Lora.wc
    refine wcAt_congr _ _ _ ?_ ?_
    · show t.val * 256 + p.val = win0_3.index t (0 : Fin 2) * 256 + 1 * p.val; omega
    · show q.val = win0_3.index t (1 : Fin 2) * 4096 + 1 * q.val; omega

/-- An index of the output array is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0).slice (win0_3.rect t)).set ↔ _
  rw [View.set_slice_whole, Rect.mem_set_unit]
  exact Iff.rfl

/-- Row `r` of the output lies in the block of point `r / 256`, which spans all 4096 columns. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hlt : (i 0).val / 256 < grid0.N := by rw [N_0]; omega
  obtain ⟨-, -, -, -, -, -, e30, e31⟩ := idx_facts ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, hlt⟩ (1 : Fin 2) * 4096 ≤ (i 1).val
      ∧ (i 1).val < win0_3.index ⟨(i 0).val / 256, hlt⟩ (1 : Fin 2) * 4096 + 4096
    rw [e31]
    omega

/-- WHAT THE FIRST REGION LEAVES in its output array: the folded weight of the three argument arrays as the
    region finds them, at every index. -/
theorem arr_eq (c : Dev nD) :
    (dat0 (F := Ideal) V c).arrAt 3 cfg0.N = Cert.Lora.wc (V c main_arg1) (V c main_arg2) (V c main_arg3) :=
  (dat0 (F := Ideal) V c).arrAt_eq_of_cover 3 (Cert.Lora.wc (V c main_arg1) (V c main_arg2) (V c main_arg3))
    (fun t _ => flushed_eq V c t) cover

end Cert.KernelIdeal.Combine

end
-- ==== Proof.Matmul.lean ====
/-
  The second region of the idealized kernel: one matrix product, tiled.

  The region reads an array `X` of shape [8192, 4096] and an array `C` of shape [4096, 4096] and writes an array of
  shape [8192, 4096].  Its grid has 4 × 16 points.  At the point with coordinates (g0, g1) the body multiplies the
  block of 512 rows of `X` starting at row 512 * g1 (all 4096 columns) by the transpose of the block of 1024 rows of
  `C` starting at row 1024 * g0 (all 4096 columns), contracting the 4096 columns of both, and stores the [512, 1024]
  product as the block of the output at rows 512 * g1 …, columns 1024 * g0 ….  So entry (p, o) of the written block is
      Σ_d X[512 * g1 + p, d] * C[1024 * g0 + o, d],
  which is entry (512 * g1 + p, 1024 * g0 + o) of  mm X C [P, O] = Σ_d X[P, d] * C[O, d].
  The 16 × 4 output blocks tile the output array (row P lies in block row P / 512, column O in block column O / 1024),
  hence after the region the output array is `mm X C`, whatever the contents `V` on entry: `arr_eq`.
-/
import proofs.«171757_j38500086841722_2_alg».proof.Proof.Gen.KernelIdeal.Frame
import proofs.«171757_j38500086841722_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Matmul

open Cert.KernelIdeal Cert.KernelIdeal.Gen Idealize.ShloMosaic Idealize.ShloMosaic.TcCoe Idealize.ShloMosaic.ValueIdx Idealize.SL.Sem
open Idealize.ShloMosaic.Pipeline (Dat)

/-! ## The body's product at an index -/

/-- The product's dimension numbers: both operands are contracted along their axis 1 (the 4096 columns); the rows of
    the left operand index the result's rows and the rows of the right operand index the result's columns. -/
abbrev rowsDot := dot_S512x4096_S1024x4096_S512x1024_1_1_0_0_n_n

/-- Entry (p, q) of what the body stores, from a [512, 4096] block `x0` and a [1024, 4096] block `x1`: row `p` of
    `x0` against row `q` of `x1`.  The two shape casts are to the same shape, the accumulator is the zero splat, and
    the one-axis contraction index is re-indexed by its coordinate `d`. -/
theorem block_product_apply (x0 : Vec Ideal S512x4096 .bf16) (x1 : Vec Ideal S1024x4096 .bf16) (p : Fin 512) (q : Fin 1024) :
    k1_pay1 (F := Ideal) x0 x1 (ix2 p q) = ∑ d : Fin 4096, x0 (ix2 p d) * x1 (ix2 q d) := by
  unfold k1_pay1
  rw [shapeCast_self, shapeCast_self]
  refine (Ideal.matmul_constant_zero_apply (φ₁ := .bf16) (φ₂ := .bf16) rowsDot none x0 x1 (ix2 p q)).trans ?_
  rw [← Equiv.sum_comp (contrEquiv1 rowsDot 4096 rfl rfl).symm]
  refine Finset.sum_congr rfl fun k _ => ?_
  have hk := contrEquiv1_symm_val rowsDot 4096 rfl rfl k
  -- the left operand is read at (p, d): axis 0 is the result's row, axis 1 the contraction coordinate
  have el : rowsDot.lhsIdx (ix2 p q) ((contrEquiv1 rowsDot 4096 rfl rfl).symm k) = ix2 p k := funext fun a => Fin.ext (by
    match a with
    | ⟨0, _⟩ =>
      show (rowsDot.lhsIdx (ix2 p q) ((contrEquiv1 rowsDot 4096 rfl rfl).symm k) 0).val = p.val
      unfold DotDims.lhsIdx
      rw [dif_neg (show ¬(0 : Fin S512x4096.rank) ∈ rowsDot.lhsBatch by decide), dif_pos (show (0 : Fin S512x4096.rank) ∈ rowsDot.lhsNonContracting by decide)]
      rfl
    | ⟨1, _⟩ => exact (rowsDot.lhsIdx_val_of_single rfl (ix2 p q) _).trans hk)
  -- the right operand is read at (q, d): axis 0 is the result's column, axis 1 the contraction coordinate
  have er : rowsDot.rhsIdx (ix2 p q) ((contrEquiv1 rowsDot 4096 rfl rfl).symm k) = ix2 q k := funext fun a => Fin.ext (by
    match a with
    | ⟨0, _⟩ =>
      show (rowsDot.rhsIdx (ix2 p q) ((contrEquiv1 rowsDot 4096 rfl rfl).symm k) 0).val = q.val
      unfold DotDims.rhsIdx
      rw [dif_neg (show ¬(0 : Fin S1024x4096.rank) ∈ rowsDot.rhsBatch by decide), dif_pos (show (0 : Fin S1024x4096.rank) ∈ rowsDot.rhsNonContracting by decide)]
      rfl
    | ⟨1, _⟩ => exact (rowsDot.rhsIdx_val_of_single rfl (ix2 p q) _).trans hk)
  rw [el, er]

/-! ## Where the blocks sit -/

/-- The zero offsets of a whole-buffer access. -/
theorem zero_offsets : (![0, 0] : Fin 2 → Nat) = fun _ => 0 := funext fun a => by fin_cases a <;> rfl

/-- The three index maps over the 64 grid points: the block of `X` is in the output block's block row and spans all
    columns; the block of `C` is in the block row numbered by the output block's block column and spans all columns;
    the output's block rows are 0 … 15 and its block columns 0 … 3. -/
theorem block_indices : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 15 ∧ win1_2.index t (1 : Fin 2) ≤ 3 :=
  (by decide +kernel : ∀ t : Fin grid1.N, _)

/-- Every one of the 16 × 4 output blocks is some grid point's. -/
theorem block_indices_onto : ∀ (q0 : Fin 16) (q1 : Fin 4), ∃ t : Fin cfg1.N, win1_2.index t = ![q0.val, q1.val] :=
  (by decide +kernel : ∀ (q0 : Fin 16) (q1 : Fin 4), ∃ t : Fin grid1.N, win1_2.index t = ![q0.val, q1.val])

-- the buffer contents when the region is entered: arbitrary
variable (V : (c : Dev nD) → (b : Ref sig .tc) → Buf (Elt Ideal) ((c : Thread nD τ).loc b))

/-- Entry (p, d) of the block of `X` at point `t` is `X` at row (output block row) * 512 + p, column d. -/
theorem x_block_apply (c : Dev nD) (t : Fin cfg1.N) (p : Fin 512) (d : Fin 4096) (k : S8192x4096.Idx)
    (hk0 : (k 0).val = win1_2.index t (0 : Fin 2) * 512 + p.val) (hk1 : (k 1).val = d.val) :
    iblk1 (F := Ideal) V c 0 t (ix2 p d) = V c main_v2 k := by
  obtain ⟨e0, e1, e2, e3, e4, e5⟩ := block_indices t
  unfold iblk1
  rw [View.read_apply]
  show V c main_v2 _ = V c main_v2 _
  refine congrArg _ ?_
  funext a
  apply Fin.ext
  match a with
  | ⟨0, _⟩ => show win1_0.index t (0 : Fin 2) * 512 + 1 * p.val = (k 0).val; rw [hk0, e0]; omega
  | ⟨1, _⟩ => show win1_0.index t (1 : Fin 2) * 4096 + 1 * d.val = (k 1).val; rw [hk1, e1]; omega

/-- Entry (q, d) of the block of `C` at point `t` is `C` at row (output block column) * 1024 + q, column d. -/
theorem weight_block_apply (c : Dev nD) (t : Fin cfg1.N) (q : Fin 1024) (d : Fin 4096) (k : S4096x4096.Idx)
    (hk0 : (k 0).val = win1_2.index t (1 : Fin 2) * 1024 + q.val) (hk1 : (k 1).val = d.val) :
    iblk1 (F := Ideal) V c 1 t (ix2 q d) = V c main_v0 k := by
  obtain ⟨e0, e1, e2, e3, e4, e5⟩ := block_indices t
  unfold iblk1
  rw [View.read_apply]
  show V c main_v0 _ = V c main_v0 _
  refine congrArg _ ?_
  funext a
  apply Fin.ext
  match a with
  | ⟨0, _⟩ => show win1_1.index t (0 : Fin 2) * 1024 + 1 * q.val = (k 0).val; rw [hk0, e2]; omega
  | ⟨1, _⟩ => show win1_1.index t (1 : Fin 2) * 4096 + 1 * d.val = (k 1).val; rw [hk1, e3]; omega

/-! ## What a grid point writes, and the array after the region -/

/-- What point `t` writes back is its block of `mm X C`: entry (p, q) of the stored product is row
    (block row) * 512 + p of `X` against row (block column) * 1024 + q of `C`, term by term in `d`. -/
theorem written_block_eq (c : Dev nD) (t : Fin cfg1.N) :
    (dat1 (F := Ideal) V c).flushed 2 t = ((cfg1.win 2).blk t).view.read (Elt Ideal) (Cert.Lora.mm (V c main_v2) (V c main_v0)) := by
  show (cfg1.win 2).cut (grid1.coords t) ((dat1 (F := Ideal) V c).after 2 t) = _
  rw [after1_2]
  unfold out1_2
  rw [View.canon_unit_zero zero_offsets]
  simp only [View.ld_unit_zero (S := S512x4096) zero_offsets, View.ld_unit_zero (S := S1024x4096) zero_offsets]
  refine funext fun (j : S512x1024.Idx) => ?_
  obtain ⟨p, q, rfl⟩ : ∃ (p : Fin 512) (q : Fin 1024), j = ix2 p q := ⟨j 0, j 1, eq_ix2 j⟩
  show k1_pay1 (F := Ideal) (iblk1 V c 0 t) (iblk1 V c 1 t) (ix2 p q)
      = Cert.Lora.mm (V c main_v2) (V c main_v0) (((cfg1.win 2).blk t).view.emb (ix2 p q))
  refine (block_product_apply (iblk1 V c 0 t) (iblk1 V c 1 t) p q).trans ?_
  unfold Cert.Lora.mm Cert.Lora.mmAt
  refine Finset.sum_congr rfl fun d _ => ?_
  -- a block's coordinate in the array is block index * block size + 1 * the coordinate inside the block
  refine congr (congrArg HMul.hMul (x_block_apply V c t p d _ ?_ ?_)) (weight_block_apply V c t q d _ ?_ ?_)
  · show win1_2.index t (0 : Fin 2) * 512 + 1 * p.val = win1_2.index t (0 : Fin 2) * 512 + p.val; omega
  · rfl
  · show win1_2.index t (1 : Fin 2) * 1024 + 1 * q.val = win1_2.index t (1 : Fin 2) * 1024 + q.val; omega
  · rfl

/-- An index of the output array is in point `t`'s block iff each coordinate is in the block's range on its axis. -/
theorem mem_out_block (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v3).slice (win1_2.rect t)).set ↔ _
  rw [View.set_slice_whole, Rect.mem_set_unit]
  exact Iff.rfl

/-- The output blocks cover the output array: entry (P, O) is in the block with block row P / 512 and block column
    O / 1024, and every point writes its block back. -/
theorem out_blocks_cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := block_indices_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_out_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- After the region the output array is `X` times the transpose of `C`, for the arrays `X`, `C` the region found:
    every point writes its block of that one function, and the blocks cover the array. -/
theorem arr_eq (c : Dev nD) :
    (dat1 (F := Ideal) V c).arrAt 2 cfg1.N = Cert.Lora.mm (V c main_v2) (V c main_v0) :=
  (dat1 (F := Ideal) V c).arrAt_eq_of_cover 2 (Cert.Lora.mm (V c main_v2) (V c main_v0)) (fun t _ => written_block_eq V c t) out_blocks_cover

end Cert.KernelIdeal.Matmul

end
-- ==== Proof.KernelValue.lean ====
/-
  The idealized kernel's result as a function of its four arguments.

  Read backwards from the result buffer: the last host operation unflattens the matmul region's output array; that
  array is (flattened, format-converted x) times the transpose of the folded weight; the folded weight is what the
  first region leaves in its output array, W + two · B·A entry by entry, of the launch contents of W, A and B; and
  the flattened x is the reshape of x's launch contents (the change of float format is the identity on the
  extended reals).  Put together, entry (b, s, o) of the result is Σ_d x[b,s,d] · (W[o,d] + two · Σ_r B[o,r] · A[r,d]),
  the fused form `Gk` of the specification.
-/
import proofs.«171757_j38500086841722_2_alg».proof.Proof.Gen.KernelIdeal.Frame
import proofs.«171757_j38500086841722_2_alg».proof.Proof.Spec
import proofs.«171757_j38500086841722_2_alg».proof.Proof.Flatten
import proofs.«171757_j38500086841722_2_alg».proof.Proof.Combine
import proofs.«171757_j38500086841722_2_alg».proof.Proof.Matmul
import Idealize.ShloMosaic.Lib.Pipeline.Value
import Idealize.ShloMosaic.Lib.ValueIdx
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer is the unflattening of the matmul region's output array. -/
theorem tail_eq (c : Dev nD) :
    (W4 m ρ c (Proc.devRef .tc main_v4) : S4x2048x4096.Idx → EReal)
      = shapeCast S4x2048x4096 (W3 m ρ c (Proc.devRef .tc main_v3) : S8192x4096.Idx → EReal) shapeCasts_S8192x4096_S4x2048x4096 := by
  show StableHlo.after hostOps2 (W3 m ρ c) (Proc.devRef .tc main_v4) = _
  after_results
  rfl

/-- The matmul region's output array at its exit is what its write-backs leave. -/
theorem out1_eq (c : Dev nD) :
    W3 m ρ c (Proc.devRef .tc main_v3) = (dat1 (V2 m ρ) c).arrAt 2 cfg1.N := W3_arr m ρ c 2

/-- The matmul's left operand, as that region finds it: x's array at the first region's exit, flattened (and
    converted, which changes nothing on the extended reals). -/
theorem lhs_eq (c : Dev nD) :
    (V2 m ρ c main_v2 : S8192x4096.Idx → EReal)
      = truncf (F := Ideal) .bf16 (shapeCast S8192x4096 (W1 m ρ c (Proc.devRef .tc main_arg0) : S4x2048x4096.Idx → EReal) shapeCasts_S4x2048x4096_S8192x4096) bitsLt_bf16_f32 := by
  show StableHlo.after hostOps1 (W1 m ρ c) (Proc.devRef .tc main_v2) = _
  after_results
  rfl

/-- The first region does not touch x. -/
theorem x_kept (c : Dev nD) : W1 m ρ c (Proc.devRef .tc main_arg0) = m ((c : Thread nD τ).loc main_arg0) :=
  W1_of_ne m ρ c main_arg0 (by decide)

/-- The matmul's right operand, as that region finds it: what the first region's write-backs leave (the two host
    operations in between write other buffers). -/
theorem rhs_eq (c : Dev nD) :
    V2 m ρ c main_v0 = (dat0 (V0 m ρ) c).arrAt 3 cfg0.N := by
  show StableHlo.after hostOps1 (W1 m ρ c) (Proc.devRef .tc main_v0) = _
  after_results
  exact W1_arr m ρ c 3

/-- The result buffer at the end of the run is the fused form of the launch contents of the four arguments. -/
theorem result_eq (c : Dev nD) :
    (W4 m ρ c (Proc.devRef .tc main_v4) : S4x2048x4096.Idx → EReal)
      = Cert.Lora.Gk (m ((c : Thread nD τ).loc main_arg0)) (m ((c : Thread nD τ).loc main_arg1))
          (m ((c : Thread nD τ).loc main_arg2)) (m ((c : Thread nD τ).loc main_arg3)) := by
  rw [tail_eq, out1_eq, Cert.KernelIdeal.Matmul.arr_eq (V2 m ρ) c, lhs_eq, x_kept, rhs_eq,
    Cert.KernelIdeal.Combine.arr_eq (V0 m ρ) c]
  exact Cert.Lora.unflatten_mm_flatten _ _ _ _ _ _

end Cert.KernelIdeal.KernelValue

end
-- ==== Proof.RefValue.lean ====
/-
  The reference program's result, read at an index, is the two-path form of the layer: the base product
  Σ_d x[b,s,d]·W[o,d] plus the scale times Σ_r (Σ_d x[b,s,d]·A[r,d])·B[o,r].  Each of its three contractions is read as a
  finite sum over the contracted coordinate; the index each operand is read at is the specification's index,
  coordinate by coordinate.
-/
import proofs.«171757_j38500086841722_2_alg».proof.Proof.Gen.ReferenceIdeal.Read
import proofs.«171757_j38500086841722_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The base product's left operand is read at (b, s, k). -/
theorem lidx0_eq (i : S4x2048x4096.Idx) (k : Fin 4096) :
    lidx_main_v0 i k = ix3 (⟨(i 0).val, (i 0).isLt⟩ : Fin 4) (⟨(i 1).val, (i 1).isLt⟩ : Fin 2048) k :=
  funext fun a => by match a with | ⟨0, _⟩ => rfl | ⟨1, _⟩ => rfl | ⟨2, _⟩ => rfl

/-- The base product's right operand is read at (o, k). -/
theorem ridx0_eq (i : S4x2048x4096.Idx) (k : Fin 4096) :
    ridx_main_v0 i k = ix2 (⟨(i 2).val, (i 2).isLt⟩ : Fin 4096) k :=
  funext fun a => by match a with | ⟨0, _⟩ => rfl | ⟨1, _⟩ => rfl

/-- The down-projection's left operand is read at (b, s, k), whatever rank coordinate r the outer sum is at. -/
theorem lidx1_eq (i : S4x2048x4096.Idx) (r : Fin 16) (k : Fin 4096) :
    lidx_main_v1 (lidx_main_v2 i r) k = ix3 (⟨(i 0).val, (i 0).isLt⟩ : Fin 4) (⟨(i 1).val, (i 1).isLt⟩ : Fin 2048) k :=
  funext fun a => by match a with | ⟨0, _⟩ => rfl | ⟨1, _⟩ => rfl | ⟨2, _⟩ => rfl

/-- The down-projection's right operand is read at (r, k). -/
theorem ridx1_eq (i : S4x2048x4096.Idx) (r : Fin 16) (k : Fin 4096) :
    ridx_main_v1 (lidx_main_v2 i r) k = ix2 r k :=
  funext fun a => by match a with | ⟨0, _⟩ => rfl | ⟨1, _⟩ => rfl

/-- The up-projection's right operand is read at (o, r). -/
theorem ridx2_eq (i : S4x2048x4096.Idx) (r : Fin 16) :
    ridx_main_v2 i r = ix2 (⟨(i 2).val, (i 2).isLt⟩ : Fin 4096) r :=
  funext fun a => by match a with | ⟨0, _⟩ => rfl | ⟨1, _⟩ => rfl

/-- The reference's result is the two-path form of its four arguments. -/
theorem ref_eq (x : FVec Ideal S4x2048x4096 .f32) (W : FVec Ideal S4096x4096 .f32) (A : FVec Ideal S16x4096 .f32)
    (B : FVec Ideal S4096x16 .f32) :
    val_main_v5 (F := Ideal) x W A B = Cert.Lora.Gr x W A B := by
  funext i
  rw [val_main_v5_apply, val_main_v4_apply, val_main_v0_apply, val_main_v2_apply, val_main_v3_apply, val_main_cst_apply]
  simp only [val_main_v1_apply, lidx0_eq, ridx0_eq, lidx1_eq, ridx1_eq, ridx2_eq, Ideal.addf_def, Ideal.mulf_def,
    Ideal.ofBits_def]
  rfl

end Cert.ReferenceIdeal.RefValue

end
-- ==== Proof.Algebra.lean ====
/-
  Algebra of the low-rank-adapter linear layer: the two-path form and the fused form agree on real inputs.

  Over the reals, for a row `x`, a weight row `W`, adapter rows `A r` and coefficients `B r`, and a scale `t`:
      Σ_d x d * W d + t * Σ_r (Σ_d x d * A r d) * B r  =  Σ_d x d * (W d + t * Σ_r B r * A r d).
  Distribute the product over the inner sum, pull the scale out of the sum over `d`, exchange the two finite sums.
  On the extended reals the same identity holds once every entry is (the coercion of) a real number, because the
  coercion commutes with products, sums and finite sums.
-/
import proofs.«171757_j38500086841722_2_alg».proof.Proof.Spec
import Mathlib.Algebra.BigOperators.Ring.Finset
import Mathlib.Data.EReal.Operations
import Mathlib.Tactic.Ring
import Mathlib.Tactic.NormNum

noncomputable section

namespace Cert.Lora

open Idealize.ShloMosaic Idealize.ShloMosaic.ValueIdx

/-- The scale is the real number 2. -/
theorem two_real : two = ((2 : ℝ) : EReal) := by
  unfold two
  simp [Ideal.ofBits, Ideal.ieee, -EReal.coe_mul]
  norm_num

/-- The coercion of the reals into the extended reals commutes with finite sums. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The identity over the reals, for arbitrary finite index types. -/
theorem fold_real {D R : Type*} [Fintype D] [Fintype R]
    (xd Wd : D → ℝ) (Ard : R → D → ℝ) (Br : R → ℝ) (t : ℝ) :
    (∑ d, xd d * Wd d) + t * ∑ r, (∑ d, xd d * Ard r d) * Br r
      = ∑ d, xd d * (Wd d + t * ∑ r, Br r * Ard r d) := by
  simp only [mul_add, Finset.sum_add_distrib]
  congr 1
  simp only [Finset.mul_sum, Finset.sum_mul]
  rw [Finset.sum_comm]
  refine Finset.sum_congr rfl fun d _ => Finset.sum_congr rfl fun r _ => ?_
  ring

/-- The same identity on the extended reals, for families of coerced reals. -/
theorem fold_ereal {D R : Type*} [Fintype D] [Fintype R]
    (xd Wd : D → ℝ) (Ard : R → D → ℝ) (Br : R → ℝ) (t : ℝ) :
    (∑ d, (xd d : EReal) * (Wd d : EReal))
        + (t : EReal) * ∑ r, (∑ d, (xd d : EReal) * (Ard r d : EReal)) * (Br r : EReal)
      = ∑ d, (xd d : EReal) * ((Wd d : EReal) + (t : EReal) * ∑ r, (Br r : EReal) * (Ard r d : EReal)) := by
  simp only [← EReal.coe_mul, ← coe_finsum, ← EReal.coe_add]
  rw [fold_real]

/-- The two-path form equals the fused form when every input entry is a real number. -/
theorem Gr_eq_Gk (x : SX.Idx → EReal) (W : SW.Idx → EReal) (A : SA.Idx → EReal) (B : SB.Idx → EReal)
    (hx : ∀ i, ∃ r : ℝ, x i = (r : EReal)) (hW : ∀ i, ∃ r : ℝ, W i = (r : EReal))
    (hA : ∀ i, ∃ r : ℝ, A i = (r : EReal)) (hB : ∀ i, ∃ r : ℝ, B i = (r : EReal)) :
    Gr x W A B = Gk x W A B := by
  choose xr hxr using hx
  choose Wr hWr using hW
  choose Ar hAr using hA
  choose Br hBr using hB
  funext i
  unfold Gr Gk GrAt GkAt wcAt
  simp only [hxr, hWr, hAr, hBr, two_real]
  exact fold_ereal (fun d => xr (ix3 _ _ d)) (fun d => Wr (ix2 _ d)) (fun r d => Ar (ix2 r d))
    (fun r => Br (ix2 _ r)) 2

end Cert.Lora

end
-- ==== Proof.Finite.lean ====
/-
  Finiteness of the inputs, read back from the printed precondition.

  The precondition is the conjunction, over the four inputs, of "every entry has absolute value below +∞"
  (each a reduction by `and` of the entrywise comparison |v| < +∞, the bound being the f32 word 0x7F800000).
  Its value being 1 gives every comparison the value 1; on the extended reals |a| = max a (-a) < ⊤ excludes
  both infinities, so every entry is (the coercion of) a real number.
-/
import proofs.«171757_j38500086841722_2_alg».proof.Proof.Gen.Pre_finite_inputs
import Idealize.ShloMosaic.Lib.ReduceAll
import Idealize.ShloMosaic.PureOps.Ideal.Laws
import Idealize.ShloMosaic.Lib.ValueIdx

noncomputable section

namespace Cert.Lora

open Idealize.ShloMosaic Idealize.ShloMosaic.ValueIdx

/-- The rank-0 shape has exactly one index. -/
instance : Subsingleton Cert.Pre_finite_inputs.S_.Idx := ⟨fun a b => funext fun d => d.elim0⟩

/-- An extended real whose absolute value compares below the f32 word of +∞ is a real number. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | coe r => exact ⟨r, rfl⟩
  | top => simp [Ideal.cmp] at h

/-- One entry of one input: the entrywise comparison of |v| against the splat of +∞ being 1 makes the entry real. -/
theorem real_of_cmp {s : Shape} (v : FVec Ideal s .f32)
    (hb : Cert.Pre_finite_inputs.S_.BroadcastsInDim s (![] : Fin 0 → Fin s.rank)) (i : s.Idx)
    (h : cmpf (F := Ideal) CmpFPredicate.olt (Host.absf v)
        (broadcastInDim s ![] hb (constant Cert.Pre_finite_inputs.S_ FTy.f32 0x7F800000#32)) i = 1#1) :
    ∃ r : ℝ, v i = (r : EReal) :=
  real_of_abs_lt_inf (v i) h

/-- Under the precondition every entry of every input is a real number. -/
theorem finite_of_pre [Cert.Pre_finite_inputs.Facts]
    (x : FVec Ideal Cert.Pre_finite_inputs.S4x2048x4096 .f32) (W : FVec Ideal Cert.Pre_finite_inputs.S4096x4096 .f32)
    (A : FVec Ideal Cert.Pre_finite_inputs.S16x4096 .f32) (B : FVec Ideal Cert.Pre_finite_inputs.S4096x16 .f32)
    (h : Cert.Pre_finite_inputs.fn (F := Ideal) x W A B = fun _ => 1#1) :
    (∀ i, ∃ r : ℝ, x i = (r : EReal)) ∧ (∀ i, ∃ r : ℝ, W i = (r : EReal))
      ∧ (∀ i, ∃ r : ℝ, A i = (r : EReal)) ∧ (∀ i, ∃ r : ℝ, B i = (r : EReal)) := by
  have e := congrFun h ValueIdx.ix0
  dsimp only [Cert.Pre_finite_inputs.fn, Cert.Pre_finite_inputs.fn_part1, andi] at e
  obtain ⟨e3, eB⟩ := IntOp.andi_eq_one.1 e
  obtain ⟨e2, eA⟩ := IntOp.andi_eq_one.1 e3
  obtain ⟨ex, eW⟩ := IntOp.andi_eq_one.1 e2
  exact ⟨fun i => real_of_cmp x _ i (Host.reduce_andi_all _ _ _ _ _ ex i),
    fun i => real_of_cmp W _ i (Host.reduce_andi_all _ _ _ _ _ eW i),
    fun i => real_of_cmp A _ i (Host.reduce_andi_all _ _ _ _ _ eA i),
    fun i => real_of_cmp B _ i (Host.reduce_andi_all _ _ _ _ _ eB i)⟩

end Cert.Lora

end
-- ==== Proof.lean ====
/-
  A low-rank-adapter linear layer, fused against its two-path definition, on the extended reals.

  The kernel folds the adapter into the weight once, wc[o,d] = W[o,d] + two · Σ_r B[o,r]·A[r,d] (its first region, 256
  rows of the weight per grid point), flattens x to [8192, 4096], multiplies it by the transpose of the folded weight
  (its second region, a 512 × 1024 block of the product per grid point, the whole contraction inside the block), and
  unflattens.  The reference computes the base product Σ_d x[b,s,d]·W[o,d] and adds two times the low-rank path
  Σ_r (Σ_d x[b,s,d]·A[r,d])·B[o,r].  The two agree entry by entry once every input entry is a real number:
  distribute x[b,s,d] over the sum inside wc, pull the scale out of the sum over d and exchange the sums over d and r.
  On the extended reals distributivity fails at infinities, which is where the precondition (all inputs finite) is
  used; changes of float format are the identity there, and the kernel's matmuls into a zero accumulator are the
  plain sums the reference's contractions are.

  The three frames: the two kernel programs' are the generated frame certificates; the reference has no kernel, and
  its frame is its generated run with the result dropped.  The idealization rewrote no operation, so there is
  nothing to preserve.  For the value claim, both runs are posted at the same array, the fused form `Gk` of the
  kernel's launch arguments: the kernel's run with its result named (KernelRun) read back through the host
  operations and the two regions (KernelValue, over Combine and Matmul and the reshape arithmetic of Flatten), the
  reference's generated run read as the two-path form (RefValue) and turned into the fused form by the algebraic
  law (Algebra) under finiteness (Finite).
-/
import proofs.«171757_j38500086841722_2_alg».proof.Defs
import proofs.«171757_j38500086841722_2_alg».proof.Proof.Gen.Kernel
import proofs.«171757_j38500086841722_2_alg».proof.Proof.Gen.Kernel.Skeleton
import proofs.«171757_j38500086841722_2_alg».proof.Proof.Gen.Kernel.Launch
import proofs.«171757_j38500086841722_2_alg».proof.Proof.Gen.Kernel.Points
import proofs.«171757_j38500086841722_2_alg».proof.Proof.Gen.Kernel.Frame
import proofs.«171757_j38500086841722_2_alg».proof.Proof.Gen.KernelIdeal
import proofs.«171757_j38500086841722_2_alg».proof.Proof.Gen.KernelIdeal.Skeleton
import proofs.«171757_j38500086841722_2_alg».proof.Proof.Gen.KernelIdeal.Launch
import proofs.«171757_j38500086841722_2_alg».proof.Proof.Gen.KernelIdeal.Points
import proofs.«171757_j38500086841722_2_alg».proof.Proof.Gen.KernelIdeal.Frame
import proofs.«171757_j38500086841722_2_alg».proof.Proof.Gen.ReferenceIdeal
import proofs.«171757_j38500086841722_2_alg».proof.Proof.Gen.Pre_finite_inputs
import proofs.«171757_j38500086841722_2_alg».proof.Proof.Gen.ReferenceIdeal.Read
import proofs.«171757_j38500086841722_2_alg».proof.Proof.KernelRun
import proofs.«171757_j38500086841722_2_alg».proof.Proof.KernelValue
import proofs.«171757_j38500086841722_2_alg».proof.Proof.RefValue
import proofs.«171757_j38500086841722_2_alg».proof.Proof.Algebra
import proofs.«171757_j38500086841722_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

open Cert.KernelIdeal in
/-- Both programs end with the fused form of the arguments: the kernel computes it as written; the reference's
    two-path form equals it because every input entry is a real number. -/
theorem algebraic : Cert.algebraic_KernelIdeal_ReferenceIdeal := by
  intro m ρ m' ρ' hpre hagree
  refine ⟨fun c => Cert.Lora.Gk (m ((c : Thread nD τ).loc main_arg0)) (m ((c : Thread nD τ).loc main_arg1))
      (m ((c : Thread nD τ).loc main_arg2)) (m ((c : Thread nD τ).loc main_arg3)), ?_, ?_⟩
  · exact (θ_run Cert.KernelIdeal.defs _ _).mono
      (fun r h c => ⟨(h c).1.trans (Cert.KernelIdeal.KernelValue.result_eq m ρ c), (h c).2⟩)
      (Cert.KernelIdeal.KernelRun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.RefValue.ref_eq,
      (hagree c).1, (hagree c).2.1, (hagree c).2.2.1, (hagree c).2.2.2]
    obtain ⟨hx, hW, hA, hB⟩ := Cert.Lora.finite_of_pre _ _ _ _ (hpre c)
    exact Cert.Lora.Gr_eq_Gk _ _ _ _ hx hW hA hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
